-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x64 .f32) (main_arg10 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x64 .f32) (main_arg10 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S5000x128 : Shape := ⟨2, ![5000, 128]⟩
abbrev S512x128 : Shape := ⟨2, ![512, 128]⟩
abbrev S100000x1 : Shape := ⟨2, ![100000, 1]⟩
abbrev S512x1 : Shape := ⟨2, ![512, 1]⟩
abbrev S512x64 : Shape := ⟨2, ![512, 64]⟩
abbrev S1x64 : Shape := ⟨2, ![1, 64]⟩

abbrev nBuf : Space → Nat
  | .hbm => 82
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S512x128, .f32⟩
  | .hbm, ⟨65, _⟩ => ⟨S100000x1, .i32⟩
  | .hbm, ⟨66, _⟩ => ⟨S512x128, .f32⟩
  | .hbm, ⟨67, _⟩ => ⟨S_, .f32⟩
  | .hbm, ⟨68, _⟩ => ⟨S100000x1, .f32⟩
  | .hbm, ⟨69, _⟩ => ⟨S_, .f32⟩
  | .hbm, ⟨70, _⟩ => ⟨S512x1, .f32⟩
  | .hbm, ⟨71, _⟩ => ⟨S100000x1, .i32⟩
  | .hbm, ⟨72, _⟩ => ⟨S512x1, .f32⟩
  | .hbm, ⟨73, _⟩ => ⟨S_, .f32⟩
  | .hbm, ⟨74, _⟩ => ⟨S512x1, .f32⟩
  | .hbm, ⟨75, _⟩ => ⟨S512x1, .f32⟩
  | .hbm, ⟨76, _⟩ => ⟨S512x128, .f32⟩
  | .hbm, ⟨77, _⟩ => ⟨S512x128, .f32⟩
  | .hbm, ⟨78, _⟩ => ⟨S512x64, .f32⟩
  | .hbm, ⟨79, _⟩ => ⟨S1x64, .f32⟩
  | .hbm, ⟨80, _⟩ => ⟨S512x64, .f32⟩
  | .hbm, ⟨81, _⟩ => ⟨S512x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_1 : Ref sig .tc := ⟨.hbm, 33, rfl⟩
abbrev main_v19 : Ref sig .tc := ⟨.hbm, 34, rfl⟩
abbrev main_v20 : Ref sig .tc := ⟨.hbm, 35, rfl⟩
abbrev main_c_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_4 : Ref sig .tc := ⟨.hbm, 48, rfl⟩
abbrev main_v31 : Ref sig .tc := ⟨.hbm, 49, rfl⟩
abbrev main_v32 : Ref sig .tc := ⟨.hbm, 50, rfl⟩
abbrev main_c_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S128_S1x128 : S128.ShapeCasts S1x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S512x128 : S_.BroadcastsInDim S512x128 (![] : Fin 0 → Fin S512x128.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S512x128_S100000x1_S100000x128_1_0_0_1_wf : ScatterDims.WF S512x128 S100000x1 S100000x128 [1] [0] [0] 1
  scatter_S512x1_S100000x1_S100000x1_1_0_0_1_wf : ScatterDims.WF S512x1 S100000x1 S100000x1 [1] [0] [0] 1
  dot_S512x128_S128x64_S512x64_1_0_0_1_n_n_wf : DotDims.WF S512x128 S128x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512x1_S100000x1_S100000x1_1_0_0_1 : ScatterDims S512x1 S100000x1 S100000x1 where
  updateWindowDims := [1]
  insertedWindowDims := [0]
  scatterDimsToOperandDims := [0]
  indexVectorDim := 1
  wf := scatter_S512x1_S100000x1_S100000x1_1_0_0_1_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf

abbrev win0_0 : Pipeline.Window sig grid0 :=
  Pipeline.Window.ofSpec (Memref.whole main_v17) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v41) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S512x128 : Shape := ⟨2, ![512, 128]⟩
abbrev S100000x1 : Shape := ⟨2, ![100000, 1]⟩
abbrev S512x1 : Shape := ⟨2, ![512, 1]⟩
abbrev S512x64 : Shape := ⟨2, ![512, 64]⟩
abbrev S1x64 : Shape := ⟨2, ![1, 64]⟩

abbrev nBuf : Space → Nat
  | .hbm => 97
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S_, .f32⟩
  | .hbm, ⟨34, _⟩ => ⟨S100000x128, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S100000x128, .f32⟩
  | .hbm, ⟨56, _⟩ => ⟨S100000x128, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x128, .f32⟩
  | .hbm, ⟨66, _⟩ => ⟨S_, .f32⟩
  | .hbm, ⟨67, _⟩ => ⟨S100000x128, .f32⟩
  | .hbm, ⟨68, _⟩ => ⟨S1600000x1, .i32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S512x128, .f32⟩
  | .hbm, ⟨80, _⟩ => ⟨S100000x1, .i32⟩
  | .hbm, ⟨81, _⟩ => ⟨S512x128, .f32⟩
  | .hbm, ⟨82, _⟩ => ⟨S_, .f32⟩
  | .hbm, ⟨83, _⟩ => ⟨S100000x1, .f32⟩
  | .hbm, ⟨84, _⟩ => ⟨S_, .f32⟩
  | .hbm, ⟨85, _⟩ => ⟨S512x1, .f32⟩
  | .hbm, ⟨86, _⟩ => ⟨S100000x1, .i32⟩
  | .hbm, ⟨87, _⟩ => ⟨S512x1, .f32⟩
  | .hbm, ⟨88, _⟩ => ⟨S_, .f32⟩
  | .hbm, ⟨89, _⟩ => ⟨S512x1, .f32⟩
  | .hbm, ⟨90, _⟩ => ⟨S512x1, .f32⟩
  | .hbm, ⟨91, _⟩ => ⟨S512x128, .f32⟩
  | .hbm, ⟨92, _⟩ => ⟨S512x128, .f32⟩
  | .hbm, ⟨93, _⟩ => ⟨S512x64, .f32⟩
  | .hbm, ⟨94, _⟩ => ⟨S1x64, .f32⟩
  | .hbm, ⟨95, _⟩ => ⟨S512x64, .f32⟩
  | .hbm, ⟨96, _⟩ => ⟨S512x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_cst : Ref sig .tc := ⟨.hbm, 33, rfl⟩
abbrev main_call0_v0 : Ref sig .tc := ⟨.hbm, 34, rfl⟩
abbrev main_v19 : Ref sig .tc := ⟨.hbm, 35, rfl⟩
abbrev main_c_1 : Ref sig .tc := ⟨.hbm, 36, rfl⟩
abbrev main_v20 : Ref sig .tc := ⟨.hbm, 37, rfl⟩
abbrev main_v21 : Ref sig .tc := ⟨.hbm, 38, rfl⟩
abbrev main_c_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call1_cst : Ref sig .tc := ⟨.hbm, 54, rfl⟩
abbrev main_call1_v0 : Ref sig .tc := ⟨.hbm, 55, rfl⟩
abbrev main_v35 : Ref sig .tc := ⟨.hbm, 56, rfl⟩
abbrev main_c_4 : Ref sig .tc := ⟨.hbm, 57, rfl⟩
abbrev main_v36 : Ref sig .tc := ⟨.hbm, 58, rfl⟩
abbrev main_v37 : Ref sig .tc := ⟨.hbm, 59, rfl⟩
abbrev main_c_5 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call2_cst : Ref sig .tc := ⟨.hbm, 75, rfl⟩
abbrev main_call2_v0 : Ref sig .tc := ⟨.hbm, 76, rfl⟩
abbrev main_v51 : Ref sig .tc := ⟨.hbm, 77, rfl⟩
abbrev main_cst_7 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_8 : Ref sig .tc := ⟨.hbm, 82, rfl⟩
abbrev main_v55 : Ref sig .tc := ⟨.hbm, 83, rfl⟩
abbrev main_cst_9 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_10 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  scatter_S512x1_S100000x1_S100000x1_1_0_0_1_wf : ScatterDims.WF S512x1 S100000x1 S100000x1 [1] [0] [0] 1
  dot_S512x128_S128x64_S512x64_1_0_0_1_n_n_wf : DotDims.WF S512x128 S128x64 S512x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512x1_S100000x1_S100000x1_1_0_0_1 : ScatterDims S512x1 S100000x1 S100000x1 where
  updateWindowDims := [1]
  insertedWindowDims := [0]
  scatterDimsToOperandDims := [0]
  indexVectorDim := 1
  wf := scatter_S512x1_S100000x1_S100000x1_1_0_0_1_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf

class Facts : Prop extends Facts₀ where

variable [Facts]
-- ==== Proof.NamedRun.lean ====
/-
  The idealized kernel's run with its whole final memory named.

  The program is three launches of the dense-layer kernel among four stretches of host operations.  Its run passes through
  eight boundaries; at each one the contents of every buffer are a known function of the launch memory: a host stretch
  applies its operations in order, and a launch leaves its output array at what its twenty grid points write back and every
  other buffer as it found it.  Every weakly fair execution terminates without a fault, and in its final state every buffer
  that is not scoped to a kernel holds the last boundary's contents.  From that one reads the result array and that the
  eleven argument arrays end as launched.
-/
import proofs.«155894_j22960895164529_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and every buffer not scoped to a kernel ends at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The result array ends at the last boundary's contents, and the arguments end as launched. -/
theorem run_out : θ_run defs (onTc (τ := τ) (main (F := F))) ⟨m, fun _ => 0, ρ⟩ (fun r => ∀ c : Dev nD,
      r.2.mem ((c.tc : Thread nD τ).loc main_v57) = W7 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c _ (mem_uc main_v57 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c)⟩)
    (run_all m ρ)

end Cert.KernelIdeal.Named

end
-- ==== Proof.Network.lean ====
/-
  The network as five functions of whole arrays, in the host's own operations.

  * The edge table's first row holds the senders and its second row the receivers of 1,600,000 edges.
  * A sender position below zero counts from the end: it is moved up by the number of nodes, 100,000.
  * mix: every node's features plus the sum of the features of the senders of the edges it receives
    (a gather of the senders' rows, accumulated at the receivers' rows, starting from zeros).
  * dense: the features times a 128 × 128 weight matrix, plus a bias on every row, clamped below at zero.
  * readout: the per-graph mean of the features (the sum over a graph's nodes, divided by the larger of the number of
    its nodes and one), times the 128 × 64 output weights, plus the output bias on every row.

  The network is three rounds of mix then dense, then the readout.  The reference program computes exactly this
  composition: its result term is these functions with their definitions written out.
-/
import proofs.«155894_j22960895164529_1_alg».proof.Proof.Gen.ReferenceIdeal.Run
import Idealize.ShloMosaic.PureOps.Ideal

set_option maxRecDepth 16384

noncomputable section

namespace Cert.Gin

open Idealize.ShloMosaic Idealize.ShloMosaic.TcCoe Idealize.SL.Sem Cert.ReferenceIdeal Cert.ReferenceIdeal.Gen

/-- The senders of the edges: the edge table's first row as a vector. -/
def senders (e : IVec S2x1600000 32) : IVec S1600000 32 :=
  shapeCast _ (extractStridedSlice S1x1600000 ![0, 0] e slices_S2x1600000_S1x1600000_0_0) shapeCasts_S1x1600000_S1600000

/-- The receivers of the edges: the edge table's second row as a vector. -/
def receivers (e : IVec S2x1600000 32) : IVec S1600000 32 :=
  shapeCast _ (extractStridedSlice S1x1600000 ![1, 0] e slices_S2x1600000_S1x1600000_1_0) shapeCasts_S1x1600000_S1600000

/-- Positions below zero moved up by the number of nodes. -/
def wrap (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s

/-- Every node's features plus the sum of its in-neighbours' features. -/
def mix (s d : IVec S1600000 32) (h : FVec Ideal S100000x128 .f32) :
    FVec Ideal S100000x128 .f32 :=
  addf h (Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 h
      (broadcastInDim S1600000x1 ![0] bcast_S1600000_S1600000x1_0 (wrap s))))

/-- The features times the weights, plus the bias on every row, clamped below at zero. -/
def dense (h : FVec Ideal S100000x128 .f32) (w : FVec Ideal S128x128 .f32)
    (b : FVec Ideal S128 .f32) : FVec Ideal S100000x128 .f32 :=
  maximumf (addf (Host.dotGeneral dot_S100000x128_S128x128_S100000x128_1_0_0_1_n_n none h w)
      (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

/-- The per-graph mean of the features, times the output weights, plus the output bias on every row. -/
def readout (g : IVec S100000 32) (h : FVec Ideal S100000x128 .f32)
    (wf : FVec Ideal S128x64 .f32) (bf : FVec Ideal S64 .f32) :
    FVec Ideal S512x64 .f32 :=
  addf (Host.dotGeneral dot_S512x128_S128x64_S512x64_1_0_0_1_n_n none
      (Host.divf (Host.scatterAdd scatter_S512x128_S100000x1_S100000x128_1_0_0_1
          (broadcastInDim S512x128 ![] bcast_S_S512x128 (constant (F := Ideal) S_ .f32 0x00000000#32))
          (broadcastInDim S100000x1 ![0] bcast_S100000_S100000x1_0 g) h)
        (broadcastInDim S512x128 ![0, 1] bcast_S512x1_S512x128_0_1
          (maximumf (Host.scatterAdd scatter_S512x1_S100000x1_S100000x1_1_0_0_1
              (broadcastInDim S512x1 ![] bcast_S_S512x1 (constant (F := Ideal) S_ .f32 0x00000000#32))
              (broadcastInDim S100000x1 ![0] bcast_S100000_S100000x1_0 g)
              (broadcastInDim S100000x1 ![] bcast_S_S100000x1 (constant (F := Ideal) S_ .f32 0x3F800000#32)))
            (broadcastInDim S512x1 ![] bcast_S_S512x1 (constant (F := Ideal) S_ .f32 0x3F800000#32))))) wf)
    (broadcastInDim S512x64 ![0, 1] bcast_S1x64_S512x64_0_1 (broadcastInDim S1x64 ![1] bcast_S64_S1x64_1 bf))

/-- Three rounds of mix then dense, then the readout. -/
def gin (x : FVec Ideal S100000x128 .f32) (e : IVec S2x1600000 32)
    (g : IVec S100000 32)
    (w1 : FVec Ideal S128x128 .f32) (b1 : FVec Ideal S128 .f32)
    (w2 : FVec Ideal S128x128 .f32) (b2 : FVec Ideal S128 .f32)
    (w3 : FVec Ideal S128x128 .f32) (b3 : FVec Ideal S128 .f32)
    (wf : FVec Ideal S128x64 .f32) (bf : FVec Ideal S64 .f32) :
    FVec Ideal S512x64 .f32 :=
  readout g
    (dense (mix (senders e) (receivers e)
      (dense (mix (senders e) (receivers e)
        (dense (mix (senders e) (receivers e) x) w1 b1)) w2 b2)) w3 b3) wf bf

/-- The reference program's result is the network of its arguments. -/
theorem reference_eq (m : (ℓ : Loc nD τ sig) → Buf (Elt Ideal) ℓ) (c : Dev nD) :
    Cert.ReferenceIdeal.Value.res_main_v66 (F := Ideal) m c
      = gin (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) := by
  unfold Cert.ReferenceIdeal.Value.res_main_v66 gin readout dense mix wrap senders receivers
  rfl

end Cert.Gin

end
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.LibGcnSteps.lean ====
/-
  The four kinds of step of a two-layer graph convolution with a link decoder, each written entry by entry, and
  each shown equal to the same step spelt with whole-array host operations.

  * a matrix product: entry (p, q) is the sum over k of x(p, k) · w(k, q);
  * scaling every row p of a message matrix by one number n(p, 0) of a column;
  * adding a bias row to every row and clamping below at zero;
  * the link score of row p: the sum over h of zs(p, h) · zd(p, h) · w(0, h), plus one bias number.

  Nothing here needs a finite operand: the only laws used are that both spellings name the same entries.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws
import proofs.«155894_j22960895164529_1_alg».proof.Proof.LibLayout
import proofs.«155894_j22960895164529_1_alg».proof.Proof.LibMatmulIx

noncomputable section

namespace Gcn

open Idealize.ShloMosaic Idealize.ShloMosaic.ValueIdx

variable {a b K : ℕ}

/-! ## The steps, entry by entry -/

/-- The matrix product: entry (p, q) is the sum over k of x(p, k) · w(k, q). -/
def mm (x : FVec Ideal ⟨2, ![a, K]⟩ .f32) (w : FVec Ideal ⟨2, ![K, b]⟩ .f32) : FVec Ideal ⟨2, ![a, b]⟩ .f32 :=
  fun i => ∑ k : Fin K, x (ix2 (i 0) k) * w (ix2 k (i 1))

/-- Row p of g multiplied by the number n(p, 0). -/
def scale (g : FVec Ideal ⟨2, ![a, b]⟩ .f32) (n : FVec Ideal ⟨2, ![a, 1]⟩ .f32) : FVec Ideal ⟨2, ![a, b]⟩ .f32 :=
  fun i => g i * n (ix2 (i 0) (0 : Fin 1))

/-- The bias row added to every row, then the maximum with zero. -/
def biasRelu (z : FVec Ideal ⟨2, ![a, b]⟩ .f32) (bias : FVec Ideal ⟨2, ![1, b]⟩ .f32) : FVec Ideal ⟨2, ![a, b]⟩ .f32 :=
  fun i => max (z i + bias (ix2 (0 : Fin 1) (i 1))) (Ideal.ofBits .f32 0x00000000#32)

/-- The link score of row p: the sum over h of zs(p, h) · zd(p, h) · w(0, h), plus the bias number. -/
def decode (zs zd : FVec Ideal ⟨2, ![a, b]⟩ .f32) (w : FVec Ideal ⟨2, ![1, b]⟩ .f32) (bias : FVec Ideal ⟨2, ![1, 1]⟩ .f32) :
    FVec Ideal ⟨2, ![a, 1]⟩ .f32 :=
  fun i => (∑ h : Fin b, zs (ix2 (i 0) h) * zd (ix2 (i 0) h) * w (ix2 (0 : Fin 1) h)) + bias (ix2 (0 : Fin 1) (0 : Fin 1))

theorem mm_apply (x : FVec Ideal ⟨2, ![a, K]⟩ .f32) (w : FVec Ideal ⟨2, ![K, b]⟩ .f32) (p : Fin a) (q : Fin b) :
    mm x w (ix2 p q) = ∑ k : Fin K, x (ix2 p k) * w (ix2 k q) := rfl

theorem scale_apply (g : FVec Ideal ⟨2, ![a, b]⟩ .f32) (n : FVec Ideal ⟨2, ![a, 1]⟩ .f32) (p : Fin a) (q : Fin b) :
    scale g n (ix2 p q) = g (ix2 p q) * n (ix2 p (0 : Fin 1)) := rfl

theorem biasRelu_apply (z : FVec Ideal ⟨2, ![a, b]⟩ .f32) (bias : FVec Ideal ⟨2, ![1, b]⟩ .f32) (p : Fin a) (q : Fin b) :
    biasRelu z bias (ix2 p q) = max (z (ix2 p q) + bias (ix2 (0 : Fin 1) q)) (Ideal.ofBits .f32 0x00000000#32) := rfl

theorem decode_apply (zs zd : FVec Ideal ⟨2, ![a, b]⟩ .f32) (w : FVec Ideal ⟨2, ![1, b]⟩ .f32) (bias : FVec Ideal ⟨2, ![1, 1]⟩ .f32)
    (p : Fin a) (u : Fin 1) :
    decode zs zd w bias (ix2 p u)
      = (∑ h : Fin b, zs (ix2 p h) * zd (ix2 p h) * w (ix2 (0 : Fin 1) h)) + bias (ix2 (0 : Fin 1) (0 : Fin 1)) := rfl

/-! ## The same steps spelt with host operations -/

/-- The product is the host's `dot_general` contracting the left operand's columns with the right operand's rows. -/
theorem mm_eq_dotGeneral (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (x : FVec Ideal ⟨2, ![a, K]⟩ .f32) (w : FVec Ideal ⟨2, ![K, b]⟩ .f32) :
    mm x w = Host.dotGeneral D prec x w := by
  funext i
  obtain ⟨p, q, rfl⟩ : ∃ (p : Fin a) (q : Fin b), i = ix2 p q := ⟨i 0, i 1, eq_ix2 i⟩
  exact (mm_apply x w p q).trans (MatmulIx.dotGeneral_ix2 D hr hs hl0 hl1 hr0 hr1 prec x w p q).symm

/-- A vector of a entries cast to a column and used to scale the rows is the host's product with the vector broadcast
    to a column and then along the rows. -/
theorem scale_eq_host (g : FVec Ideal ⟨2, ![a, b]⟩ .f32) (n : FVec Ideal ⟨1, ![a]⟩ .f32)
    (hc : (⟨1, ![a]⟩ : Shape).ShapeCasts ⟨2, ![a, 1]⟩)
    (h1 : (⟨1, ![a]⟩ : Shape).BroadcastsInDim ⟨2, ![a, 1]⟩ ![0])
    (h2 : (⟨2, ![a, 1]⟩ : Shape).BroadcastsInDim ⟨2, ![a, b]⟩ ![0, 1]) :
    scale g (shapeCast ⟨2, ![a, 1]⟩ n hc)
      = mulf g (broadcastInDim ⟨2, ![a, b]⟩ ![0, 1] h2 (broadcastInDim ⟨2, ![a, 1]⟩ ![0] h1 n)) := by
  funext i
  obtain ⟨p, q, rfl⟩ : ∃ (p : Fin a) (q : Fin b), i = ix2 p q := ⟨i 0, i 1, eq_ix2 i⟩
  have e1 : shapeCast ⟨2, ![a, 1]⟩ n hc (ix2 p (0 : Fin 1)) = n (ix1 p) := Cert.Attn.Layout.shapeCast_a_a1_apply n hc p 0
  have e2 : broadcastInDim ⟨2, ![a, b]⟩ ![0, 1] h2 (broadcastInDim ⟨2, ![a, 1]⟩ ![0] h1 n) (ix2 p q)
      = broadcastInDim ⟨2, ![a, 1]⟩ ![0] h1 n (ix2 p (0 : Fin 1)) :=
    broadcastInDim_apply ![0, 1] h2 _ (ix2 p q) (ix2 p (0 : Fin 1)) (fun c => by
      match c with
      | ⟨0, _⟩ =>
        show p.val = if a = 1 then 0 else p.val
        split
        · have := p.isLt; omega
        · rfl
      | ⟨1, _⟩ => show (0 : ℕ) = if (1 : ℕ) = 1 then 0 else _; rw [if_pos rfl])
  have e3 : broadcastInDim ⟨2, ![a, 1]⟩ ![0] h1 n (ix2 p (0 : Fin 1)) = n (ix1 p) :=
    broadcastInDim_apply ![0] h1 n (ix2 p (0 : Fin 1)) (ix1 p) (fun c => by
      match c with
      | ⟨0, _⟩ =>
        show p.val = if a = 1 then 0 else p.val
        split
        · have := p.isLt; omega
        · rfl)
  show g (ix2 p q) * shapeCast ⟨2, ![a, 1]⟩ n hc (ix2 p (0 : Fin 1)) = g (ix2 p q) * _
  rw [e1, e2, e3]

/-- A bias vector cast to one row, added to every row and clamped at zero, is the host's sum with the vector broadcast to
    a row and then to the matrix, and its maximum with the zero constant broadcast to the matrix. -/
theorem biasRelu_eq_host (z : FVec Ideal ⟨2, ![a, b]⟩ .f32) (bias : FVec Ideal ⟨1, ![b]⟩ .f32)
    (hc : (⟨1, ![b]⟩ : Shape).ShapeCasts ⟨2, ![1, b]⟩)
    (h1 : (⟨1, ![b]⟩ : Shape).BroadcastsInDim ⟨2, ![1, b]⟩ ![1])
    (h2 : (⟨2, ![1, b]⟩ : Shape).BroadcastsInDim ⟨2, ![a, b]⟩ ![0, 1])
    (h0 : (⟨0, ![]⟩ : Shape).BroadcastsInDim ⟨2, ![a, b]⟩ ![]) :
    biasRelu z (shapeCast ⟨2, ![1, b]⟩ bias hc)
      = maximumf (addf z (broadcastInDim ⟨2, ![a, b]⟩ ![0, 1] h2 (broadcastInDim ⟨2, ![1, b]⟩ ![1] h1 bias)))
          (broadcastInDim ⟨2, ![a, b]⟩ ![] h0 (constant (F := Ideal) ⟨0, ![]⟩ .f32 0x00000000#32)) := by
  funext i
  obtain ⟨p, q, rfl⟩ : ∃ (p : Fin a) (q : Fin b), i = ix2 p q := ⟨i 0, i 1, eq_ix2 i⟩
  have e1 : shapeCast ⟨2, ![1, b]⟩ bias hc (ix2 (0 : Fin 1) q) = bias (ix1 q) := shapeCast_a_1a_apply bias hc 0 q
  have e2 : broadcastInDim ⟨2, ![a, b]⟩ ![0, 1] h2 (broadcastInDim ⟨2, ![1, b]⟩ ![1] h1 bias) (ix2 p q)
      = broadcastInDim ⟨2, ![1, b]⟩ ![1] h1 bias (ix2 (0 : Fin 1) q) := broadcastInDim_oneRow_apply h2 _ p q
  have e3 : broadcastInDim ⟨2, ![1, b]⟩ ![1] h1 bias (ix2 (0 : Fin 1) q) = bias (ix1 q) :=
    broadcastInDim_apply ![1] h1 bias (ix2 (0 : Fin 1) q) (ix1 q) (fun c => by
      match c with
      | ⟨0, _⟩ =>
        show q.val = if b = 1 then 0 else q.val
        split
        · have := q.isLt; omega
        · rfl)
  have e4 : broadcastInDim ⟨2, ![a, b]⟩ ![] h0 (constant (F := Ideal) ⟨0, ![]⟩ .f32 0x00000000#32) (ix2 p q)
      = Ideal.ofBits .f32 0x00000000#32 :=
    broadcastInDim_apply ![] h0 (constant (F := Ideal) ⟨0, ![]⟩ .f32 0x00000000#32) (ix2 p q) ix0 (fun c => c.elim0)
  show max (z (ix2 p q) + shapeCast ⟨2, ![1, b]⟩ bias hc (ix2 (0 : Fin 1) q)) (Ideal.ofBits .f32 0x00000000#32)
    = max (z (ix2 p q) + _) _
  rw [e1, e2, e3, e4]

/-- The link score with the weight column cast to a row and the bias number cast to a one-by-one matrix is the host's
    product of the entrywise product zs · zd with the weight column, plus the bias broadcast to a column. -/
theorem decode_eq_host (D : DotDims ⟨2, ![a, b]⟩ ⟨2, ![b, 1]⟩ ⟨2, ![a, 1]⟩) (hr : D.contr.rank = 1)
    (hs : D.contr.size ⟨0, by omega⟩ = b)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (zs zd : FVec Ideal ⟨2, ![a, b]⟩ .f32) (w : FVec Ideal ⟨2, ![b, 1]⟩ .f32) (bias : FVec Ideal ⟨1, ![1]⟩ .f32)
    (hcw : (⟨2, ![b, 1]⟩ : Shape).ShapeCasts ⟨2, ![1, b]⟩) (hcb : (⟨1, ![1]⟩ : Shape).ShapeCasts ⟨2, ![1, 1]⟩)
    (h1 : (⟨1, ![1]⟩ : Shape).BroadcastsInDim ⟨2, ![1, 1]⟩ ![1])
    (h2 : (⟨2, ![1, 1]⟩ : Shape).BroadcastsInDim ⟨2, ![a, 1]⟩ ![0, 1]) :
    decode zs zd (shapeCast ⟨2, ![1, b]⟩ w hcw) (shapeCast ⟨2, ![1, 1]⟩ bias hcb)
      = addf (Host.dotGeneral D prec (mulf zs zd) w)
          (broadcastInDim ⟨2, ![a, 1]⟩ ![0, 1] h2 (broadcastInDim ⟨2, ![1, 1]⟩ ![1] h1 bias)) := by
  funext i
  obtain ⟨p, u, rfl⟩ : ∃ (p : Fin a) (u : Fin 1), i = ix2 p u := ⟨i 0, i 1, eq_ix2 i⟩
  obtain rfl : u = 0 := Subsingleton.elim _ _
  have ew : ∀ h : Fin b, shapeCast ⟨2, ![1, b]⟩ w hcw (ix2 (0 : Fin 1) h) = w (ix2 h (0 : Fin 1)) := fun h =>
    shapeCast_apply w hcw (ix2 (0 : Fin 1) h) (ix2 h (0 : Fin 1)) (by
      rw [Shape.rowMajor_val_two, Shape.rowMajor_val_two]
      show h.val * 1 + 0 = 0 * b + h.val
      omega)
  have eb : shapeCast ⟨2, ![1, 1]⟩ bias hcb (ix2 (0 : Fin 1) (0 : Fin 1)) = bias (ix1 (0 : Fin 1)) :=
    shapeCast_a_1a_apply bias hcb 0 0
  have e2 : broadcastInDim ⟨2, ![a, 1]⟩ ![0, 1] h2 (broadcastInDim ⟨2, ![1, 1]⟩ ![1] h1 bias) (ix2 p (0 : Fin 1))
      = broadcastInDim ⟨2, ![1, 1]⟩ ![1] h1 bias (ix2 (0 : Fin 1) (0 : Fin 1)) := broadcastInDim_oneRow_apply h2 _ p 0
  have e3 : broadcastInDim ⟨2, ![1, 1]⟩ ![1] h1 bias (ix2 (0 : Fin 1) (0 : Fin 1)) = bias (ix1 (0 : Fin 1)) :=
    broadcastInDim_apply ![1] h1 bias (ix2 (0 : Fin 1) (0 : Fin 1)) (ix1 (0 : Fin 1)) (fun c => by
      match c with
      | ⟨0, _⟩ => show (0 : ℕ) = if (1 : ℕ) = 1 then 0 else _; rw [if_pos rfl])
  have ed : Host.dotGeneral D prec (mulf zs zd) w (ix2 p (0 : Fin 1))
      = ∑ k : Fin b, (mulf zs zd) (ix2 p k) * w (ix2 k (0 : Fin 1)) :=
    MatmulIx.dotGeneral_ix2 D hr hs hl0 hl1 hr0 hr1 prec (mulf zs zd) w p 0
  show (∑ h : Fin b, zs (ix2 p h) * zd (ix2 p h) * shapeCast ⟨2, ![1, b]⟩ w hcw (ix2 (0 : Fin 1) h))
      + shapeCast ⟨2, ![1, 1]⟩ bias hcb (ix2 (0 : Fin 1) (0 : Fin 1))
    = Host.dotGeneral D prec (mulf zs zd) w (ix2 p (0 : Fin 1)) + _
  rw [eb, e2, e3, ed]
  exact congrArg (· + bias (ix1 (0 : Fin 1))) (Finset.sum_congr rfl fun h _ => by rw [ew h]; rfl)

end Gcn

end
-- ==== Proof.Payload.lean ====
/-
  One grid point of the dense layer.

  The kernel's body takes a block of 5000 rows of the features, the whole 128 × 128 weight matrix and the bias as one row.
  It multiplies the block by the weights, adds the bias row to every row, and takes the maximum with zero.  Rounding the
  product's operands to a shorter float format changes nothing on exact values, and a product accumulated into zeros is
  the plain sum over the contracted index.  So the block's result at row r and column q is

      max ( (∑ k, x(r, k) · w(k, q)) + bias(0, q) ) 0,

  the bias-and-clamp step applied to the matrix product, entry by entry.  The three launches run the same body.
-/
import proofs.«155894_j22960895164529_1_alg».proof.Proof.Gen.KernelIdeal.Skeleton
import proofs.«155894_j22960895164529_1_alg».proof.Proof.LibGcnSteps
import Idealize.ShloMosaic.Lib.ValueIdx
import Idealize.ShloMosaic.Lib.ValueLayout
import Idealize.ShloMosaic.Lib.Pipeline.Value
import Idealize.ShloMosaic.PureOps.Ideal.Laws

noncomputable section

namespace Cert.Gin.Point

open Idealize.ShloMosaic Idealize.ShloMosaic.ValueIdx Cert.KernelIdeal Cert.KernelIdeal.Gen

/-- The body's stored value at row r, column q of its block. -/
theorem pay_apply (x0 : Vec Ideal S5000x128 .f32) (x1 : Vec Ideal S128x128 .f32) (x2 : Vec Ideal S1x128 .f32)
    (r : Fin 5000) (q : Fin 128) :
    k0_pay1 (F := Ideal) x0 x1 x2 (ix2 r q)
      = Gcn.biasRelu (a := 5000) (b := 128) (Gcn.mm (a := 5000) (K := 128) (b := 128) x0 x1) x2 (ix2 r q) := by
  unfold k0_pay1
  rw [Gcn.biasRelu_apply, Gcn.mm_apply]
  show max (matmul dot_S5000x128_S128x128_S5000x128_1_0_0_1_n_n none
        (truncf .bf16 (shapeCast S5000x128 x0 shapeCasts_S5000x128_S5000x128) bitsLt_bf16_f32)
        (truncf .bf16 x1 bitsLt_bf16_f32) (constant (F := Ideal) S5000x128 .f32 0x00000000#32) (ix2 r q)
      + broadcastTo S5000x128 (shapeCast S1x128 x2 shapeCasts_S1x128_S1x128) broadcasts_S1x128_S5000x128 (ix2 r q))
      (Ideal.ofBits .f32 0x00000000#32) = _
  rw [shapeCast_self, shapeCast_self, broadcastTo_1b_ab_apply,
    MatmulIx.matmul_zero_ix2 (a := 5000) (K := 128) (b := 128) dot_S5000x128_S128x128_S5000x128_1_0_0_1_n_n rfl rfl
      (fun _ _ => rfl) (fun _ _ => rfl) (fun _ _ => rfl) (fun _ _ => rfl)]
  rfl

/-- The body's stored block is the bias-and-clamp step of the block's product with the weights. -/
theorem pay_eq (x0 : Vec Ideal S5000x128 .f32) (x1 : Vec Ideal S128x128 .f32) (x2 : Vec Ideal S1x128 .f32) :
    k0_pay1 (F := Ideal) x0 x1 x2
      = Gcn.biasRelu (a := 5000) (b := 128) (Gcn.mm (a := 5000) (K := 128) (b := 128) x0 x1) x2 := by
  funext y
  obtain ⟨r, q, rfl⟩ : ∃ (r : Fin 5000) (q : Fin 128), y = ix2 r q := ⟨y 0, y 1, eq_ix2 y⟩
  exact pay_apply x0 x1 x2 r q

/-- The second and third launches store the same function of their blocks. -/
theorem pay1_eq (x0 : Vec Ideal S5000x128 .f32) (x1 : Vec Ideal S128x128 .f32) (x2 : Vec Ideal S1x128 .f32) :
    k1_pay1 (F := Ideal) x0 x1 x2
      = Gcn.biasRelu (a := 5000) (b := 128) (Gcn.mm (a := 5000) (K := 128) (b := 128) x0 x1) x2 :=
  (show k1_pay1 (F := Ideal) x0 x1 x2 = k0_pay1 (F := Ideal) x0 x1 x2 from rfl).trans (pay_eq x0 x1 x2)

theorem pay2_eq (x0 : Vec Ideal S5000x128 .f32) (x1 : Vec Ideal S128x128 .f32) (x2 : Vec Ideal S1x128 .f32) :
    k2_pay1 (F := Ideal) x0 x1 x2
      = Gcn.biasRelu (a := 5000) (b := 128) (Gcn.mm (a := 5000) (K := 128) (b := 128) x0 x1) x2 :=
  (show k2_pay1 (F := Ideal) x0 x1 x2 = k0_pay1 (F := Ideal) x0 x1 x2 from rfl).trans (pay_eq x0 x1 x2)

end Cert.Gin.Point

end
-- ==== Proof.Launch0.lean ====
/-
  Launch 0 of the dense-layer kernel, read as one function of whole arrays.

  The launch runs the body at 20 grid points.  Point t reads rows 5000·t … 5000·t + 4999 of the features, the whole weight
  matrix and the whole bias row, and writes back rows 5000·t … 5000·t + 4999 of the output.  An entry of the body's
  result depends on its own row of the features only, so what point t writes back is rows 5000·t … of ONE function of the
  whole arrays: the matrix product of the features with the weights, plus the bias row on every row, clamped below at
  zero.  Row r of the output belongs to point r / 5000, so the twenty blocks cover the output array, which therefore
  ends holding that function — whatever the launch found in it.  Everything is stated at the contents V of the buffers
  when the launch is entered.
-/
import proofs.«155894_j22960895164529_1_alg».proof.Proof.Gen.KernelIdeal.Frame
import proofs.«155894_j22960895164529_1_alg».proof.Proof.Payload
import Idealize.ShloMosaic.Lib.Pipeline.Value
import Idealize.ShloMosaic.Lib.ValueIdx

set_option maxRecDepth 16384

noncomputable section

namespace Cert.Gin.Launch0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The dense layer of the three arrays the launch reads, as it finds them. -/
abbrev layer (c : Dev nD) : S100000x128.Idx → Elt Ideal .f32 :=
  Gcn.biasRelu (a := 100000) (b := 128) (Gcn.mm (a := 100000) (K := 128) (b := 128) (V c main_v17) (V c main_arg3)) (V c main_v4)

/-- The printed index maps over the grid: the feature window moves with the output window along the rows, the weight and
    bias windows stay at the one block of their arrays, and the output's block row is below 20. -/
theorem idx_facts : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 19 ∧ win0_3.index t (1 : Fin 2) = 0 :=
  (by decide +kernel : ∀ t : Fin grid0.N, _)

/-- Every block row of the output is some point's. -/
theorem idx_onto : ∀ q0 : Fin 20, ∃ t : Fin cfg0.N, win0_3.index t = ![q0.val, 0] :=
  (by decide +kernel : ∀ q0 : Fin 20, ∃ t : Fin grid0.N, win0_3.index t = ![q0.val, 0])

/-- The weight window's block is the whole weight matrix at every point. -/
theorem weights_blk (c : Dev nD) (t : Fin cfg0.N) : iblk0 V c 1 t = V c main_arg3 := by
  obtain ⟨-, -, e2, e3, -, -, -, -⟩ := idx_facts t
  funext y
  show V c main_arg3 (((cfg0.win 1).blk t).view.emb y) = V c main_arg3 y
  refine congrArg (V c main_arg3) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The bias window's block is the whole bias row at every point. -/
theorem bias_blk (c : Dev nD) (t : Fin cfg0.N) : iblk0 V c 2 t = V c main_v4 := by
  obtain ⟨-, -, -, -, e4, e5, -, -⟩ := idx_facts t
  funext y
  show V c main_v4 (((cfg0.win 2).blk t).view.emb y) = V c main_v4 y
  refine congrArg (V c main_v4) (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- The layer of a block of rows is the block of the layer: when row (y 0) of the block X0 is row (i 0) of the array H
    and the columns agree, the layer's entries agree (the weights and the bias row being the same). -/
theorem layer_rows (X0 : S5000x128.Idx → EReal) (X1 : S128x128.Idx → EReal) (X2 : S1x128.Idx → EReal)
    (H : S100000x128.Idx → EReal) (y : S5000x128.Idx) (i : S100000x128.Idx)
    (hrow : ∀ k : Fin 128, X0 (ix2 (y 0) k) = H (ix2 (i 0) k)) (hcol : (y 1).val = (i 1).val) :
    Gcn.biasRelu (a := 5000) (b := 128) (Gcn.mm (a := 5000) (K := 128) (b := 128) X0 X1) X2 y
      = Gcn.biasRelu (a := 100000) (b := 128) (Gcn.mm (a := 100000) (K := 128) (b := 128) H X1) X2 i := by
  have hq : (y 1 : Fin 128) = i 1 := Fin.ext hcol
  show max ((∑ k : Fin 128, X0 (ix2 (y 0) k) * X1 (ix2 k (y 1))) + X2 (ix2 (0 : Fin 1) (y 1))) (Ideal.ofBits .f32 0x00000000#32)
    = max ((∑ k : Fin 128, H (ix2 (i 0) k) * X1 (ix2 k (i 1))) + X2 (ix2 (0 : Fin 1) (i 1))) (Ideal.ofBits .f32 0x00000000#32)
  rw [hq, Finset.sum_congr rfl fun k _ => by rw [hrow k]]

/-- WHAT POINT t WRITES BACK is block t of the layer of the arrays as the launch finds them. -/
theorem flushed_eq (c : Dev nD) (t : Fin cfg0.N) :
    (dat0 V c).flushed 3 t = ((cfg0.win 3).blk t).view.read (Elt Ideal) (layer V c) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  rw [Point.pay_eq, weights_blk V c t, bias_blk V c t]
  obtain ⟨e0, e1, -, -, -, -, -, e7⟩ := idx_facts t
  funext j
  refine layer_rows _ _ _ _ j _ (fun k => ?_) ?_
  · show V c main_v17 (((cfg0.win 0).blk t).view.emb (ix2 (j 0) k)) = V c main_v17 (ix2 ((((cfg0.win 3).blk t).view.emb j) 0) k)
    refine congrArg (V c main_v17) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  · show (j 1).val = win0_3.index t (1 : Fin 2) * 128 + 1 * (j 1).val; omega

/-- An index of the output array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v18).slice (win0_3.rect t)).set ↔ _
  rw [View.set_slice_whole, Rect.mem_set_unit]
  exact Iff.rfl

/-- Every index of the output array is in some point's block: row r in point r / 5000's. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE OUTPUT ARRAY after the launch is the layer of the arrays the launch read. -/
theorem final (c : Dev nD) : (dat0 V c).arrAt 3 cfg0.N = layer V c :=
  (dat0 V c).arrAt_eq_of_cover 3 (layer V c) (fun t _ => flushed_eq V c t) cover

end Cert.Gin.Launch0

end
-- ==== Proof.Launch1.lean ====
/-
  Launch 1 of the dense-layer kernel, read as one function of whole arrays.

  The launch runs the body at 20 grid points.  Point t reads rows 5000·t … 5000·t + 4999 of the features, the whole weight
  matrix and the whole bias row, and writes back rows 5000·t … 5000·t + 4999 of the output.  An entry of the body's
  result depends on its own row of the features only, so what point t writes back is rows 5000·t … of ONE function of the
  whole arrays: the matrix product of the features with the weights, plus the bias row on every row, clamped below at
  zero.  Row r of the output belongs to point r / 5000, so the twenty blocks cover the output array, which therefore
  ends holding that function — whatever the launch found in it.  Everything is stated at the contents V of the buffers
  when the launch is entered.
-/
import proofs.«155894_j22960895164529_1_alg».proof.Proof.Gen.KernelIdeal.Frame
import proofs.«155894_j22960895164529_1_alg».proof.Proof.Payload
import Idealize.ShloMosaic.Lib.Pipeline.Value
import Idealize.ShloMosaic.Lib.ValueIdx

set_option maxRecDepth 16384

noncomputable section

namespace Cert.Gin.Launch1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The dense layer of the three arrays the launch reads, as it finds them. -/
abbrev layer (c : Dev nD) : S100000x128.Idx → Elt Ideal .f32 :=
  Gcn.biasRelu (a := 100000) (b := 128) (Gcn.mm (a := 100000) (K := 128) (b := 128) (V c main_v29) (V c main_arg5)) (V c main_v5)

/-- The printed index maps over the grid: the feature window moves with the output window along the rows, the weight and
    bias windows stay at the one block of their arrays, and the output's block row is below 20. -/
theorem idx_facts : ∀ t : Fin cfg1.N, win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 19 ∧ win1_3.index t (1 : Fin 2) = 0 :=
  (by decide +kernel : ∀ t : Fin grid1.N, _)

/-- Every block row of the output is some point's. -/
theorem idx_onto : ∀ q0 : Fin 20, ∃ t : Fin cfg1.N, win1_3.index t = ![q0.val, 0] :=
  (by decide +kernel : ∀ q0 : Fin 20, ∃ t : Fin grid1.N, win1_3.index t = ![q0.val, 0])

/-- The weight window's block is the whole weight matrix at every point. -/
theorem weights_blk (c : Dev nD) (t : Fin cfg1.N) : iblk1 V c 1 t = V c main_arg5 := by
  obtain ⟨-, -, e2, e3, -, -, -, -⟩ := idx_facts t
  funext y
  show V c main_arg5 (((cfg1.win 1).blk t).view.emb y) = V c main_arg5 y
  refine congrArg (V c main_arg5) (funext fun a => Fin.ext ?_)
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- The bias window's block is the whole bias row at every point. -/
theorem bias_blk (c : Dev nD) (t : Fin cfg1.N) : iblk1 V c 2 t = V c main_v5 := by
  obtain ⟨-, -, -, -, e4, e5, -, -⟩ := idx_facts t
  funext y
  show V c main_v5 (((cfg1.win 2).blk t).view.emb y) = V c main_v5 y
  refine congrArg (V c main_v5) (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The layer of a block of rows is the block of the layer: when row (y 0) of the block X0 is row (i 0) of the array H
    and the columns agree, the layer's entries agree (the weights and the bias row being the same). -/
theorem layer_rows (X0 : S5000x128.Idx → EReal) (X1 : S128x128.Idx → EReal) (X2 : S1x128.Idx → EReal)
    (H : S100000x128.Idx → EReal) (y : S5000x128.Idx) (i : S100000x128.Idx)
    (hrow : ∀ k : Fin 128, X0 (ix2 (y 0) k) = H (ix2 (i 0) k)) (hcol : (y 1).val = (i 1).val) :
    Gcn.biasRelu (a := 5000) (b := 128) (Gcn.mm (a := 5000) (K := 128) (b := 128) X0 X1) X2 y
      = Gcn.biasRelu (a := 100000) (b := 128) (Gcn.mm (a := 100000) (K := 128) (b := 128) H X1) X2 i := by
  have hq : (y 1 : Fin 128) = i 1 := Fin.ext hcol
  show max ((∑ k : Fin 128, X0 (ix2 (y 0) k) * X1 (ix2 k (y 1))) + X2 (ix2 (0 : Fin 1) (y 1))) (Ideal.ofBits .f32 0x00000000#32)
    = max ((∑ k : Fin 128, H (ix2 (i 0) k) * X1 (ix2 k (i 1))) + X2 (ix2 (0 : Fin 1) (i 1))) (Ideal.ofBits .f32 0x00000000#32)
  rw [hq, Finset.sum_congr rfl fun k _ => by rw [hrow k]]

/-- WHAT POINT t WRITES BACK is block t of the layer of the arrays as the launch finds them. -/
theorem flushed_eq (c : Dev nD) (t : Fin cfg1.N) :
    (dat1 V c).flushed 3 t = ((cfg1.win 3).blk t).view.read (Elt Ideal) (layer V c) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S1x128) hz]
  rw [Point.pay1_eq, weights_blk V c t, bias_blk V c t]
  obtain ⟨e0, e1, -, -, -, -, -, e7⟩ := idx_facts t
  funext j
  refine layer_rows _ _ _ _ j _ (fun k => ?_) ?_
  · show V c main_v29 (((cfg1.win 0).blk t).view.emb (ix2 (j 0) k)) = V c main_v29 (ix2 ((((cfg1.win 3).blk t).view.emb j) 0) k)
    refine congrArg (V c main_v29) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  · show (j 1).val = win1_3.index t (1 : Fin 2) * 128 + 1 * (j 1).val; omega

/-- An index of the output array is in point t's block iff each coordinate is in the block's range on its axis. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v30).slice (win1_3.rect t)).set ↔ _
  rw [View.set_slice_whole, Rect.mem_set_unit]
  exact Iff.rfl

/-- Every index of the output array is in some point's block: row r in point r / 5000's. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- THE OUTPUT ARRAY after the launch is the layer of the arrays the launch read. -/
theorem final (c : Dev nD) : (dat1 V c).arrAt 3 cfg1.N = layer V c :=
  (dat1 V c).arrAt_eq_of_cover 3 (layer V c) (fun t _ => flushed_eq V c t) cover

end Cert.Gin.Launch1

end
-- ==== Proof.Launch2.lean ====
/-
  Launch 2 of the dense-layer kernel, read as one function of whole arrays.

  The launch runs the body at 20 grid points.  Point t reads rows 5000·t … 5000·t + 4999 of the features, the whole weight
  matrix and the whole bias row, and writes back rows 5000·t … 5000·t + 4999 of the output.  An entry of the body's
  result depends on its own row of the features only, so what point t writes back is rows 5000·t … of ONE function of the
  whole arrays: the matrix product of the features with the weights, plus the bias row on every row, clamped below at
  zero.  Row r of the output belongs to point r / 5000, so the twenty blocks cover the output array, which therefore
  ends holding that function — whatever the launch found in it.  Everything is stated at the contents V of the buffers
  when the launch is entered.
-/
import proofs.«155894_j22960895164529_1_alg».proof.Proof.Gen.KernelIdeal.Frame
import proofs.«155894_j22960895164529_1_alg».proof.Proof.Payload
import Idealize.ShloMosaic.Lib.Pipeline.Value
import Idealize.ShloMosaic.Lib.ValueIdx

set_option maxRecDepth 16384

noncomputable section

namespace Cert.Gin.Launch2

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The dense layer of the three arrays the launch reads, as it finds them. -/
abbrev layer (c : Dev nD) : S100000x128.Idx → Elt Ideal .f32 :=
  Gcn.biasRelu (a := 100000) (b := 128) (Gcn.mm (a := 100000) (K := 128) (b := 128) (V c main_v41) (V c main_arg7)) (V c main_v6)

/-- The printed index maps over the grid: the feature window moves with the output window along the rows, the weight and
    bias windows stay at the one block of their arrays, and the output's block row is below 20. -/
theorem idx_facts : ∀ t : Fin cfg2.N, win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) ≤ 19 ∧ win2_3.index t (1 : Fin 2) = 0 :=
  (by decide +kernel : ∀ t : Fin grid2.N, _)

/-- Every block row of the output is some point's. -/
theorem idx_onto : ∀ q0 : Fin 20, ∃ t : Fin cfg2.N, win2_3.index t = ![q0.val, 0] :=
  (by decide +kernel : ∀ q0 : Fin 20, ∃ t : Fin grid2.N, win2_3.index t = ![q0.val, 0])

/-- The weight window's block is the whole weight matrix at every point. -/
theorem weights_blk (c : Dev nD) (t : Fin cfg2.N) : iblk2 V c 1 t = V c main_arg7 := by
  obtain ⟨-, -, e2, e3, -, -, -, -⟩ := idx_facts t
  funext y
  show V c main_arg7 (((cfg2.win 1).blk t).view.emb y) = V c main_arg7 y
  refine congrArg (V c main_arg7) (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- The bias window's block is the whole bias row at every point. -/
theorem bias_blk (c : Dev nD) (t : Fin cfg2.N) : iblk2 V c 2 t = V c main_v6 := by
  obtain ⟨-, -, -, -, e4, e5, -, -⟩ := idx_facts t
  funext y
  show V c main_v6 (((cfg2.win 2).blk t).view.emb y) = V c main_v6 y
  refine congrArg (V c main_v6) (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- The layer of a block of rows is the block of the layer: when row (y 0) of the block X0 is row (i 0) of the array H
    and the columns agree, the layer's entries agree (the weights and the bias row being the same). -/
theorem layer_rows (X0 : S5000x128.Idx → EReal) (X1 : S128x128.Idx → EReal) (X2 : S1x128.Idx → EReal)
    (H : S100000x128.Idx → EReal) (y : S5000x128.Idx) (i : S100000x128.Idx)
    (hrow : ∀ k : Fin 128, X0 (ix2 (y 0) k) = H (ix2 (i 0) k)) (hcol : (y 1).val = (i 1).val) :
    Gcn.biasRelu (a := 5000) (b := 128) (Gcn.mm (a := 5000) (K := 128) (b := 128) X0 X1) X2 y
      = Gcn.biasRelu (a := 100000) (b := 128) (Gcn.mm (a := 100000) (K := 128) (b := 128) H X1) X2 i := by
  have hq : (y 1 : Fin 128) = i 1 := Fin.ext hcol
  show max ((∑ k : Fin 128, X0 (ix2 (y 0) k) * X1 (ix2 k (y 1))) + X2 (ix2 (0 : Fin 1) (y 1))) (Ideal.ofBits .f32 0x00000000#32)
    = max ((∑ k : Fin 128, H (ix2 (i 0) k) * X1 (ix2 k (i 1))) + X2 (ix2 (0 : Fin 1) (i 1))) (Ideal.ofBits .f32 0x00000000#32)
  rw [hq, Finset.sum_congr rfl fun k _ => by rw [hrow k]]

/-- WHAT POINT t WRITES BACK is block t of the layer of the arrays as the launch finds them. -/
theorem flushed_eq (c : Dev nD) (t : Fin cfg2.N) :
    (dat2 V c).flushed 3 t = ((cfg2.win 3).blk t).view.read (Elt Ideal) (layer V c) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz, View.ld_unit_zero (S := S1x128) hz]
  rw [Point.pay2_eq, weights_blk V c t, bias_blk V c t]
  obtain ⟨e0, e1, -, -, -, -, -, e7⟩ := idx_facts t
  funext j
  refine layer_rows _ _ _ _ j _ (fun k => ?_) ?_
  · show V c main_v41 (((cfg2.win 0).blk t).view.emb (ix2 (j 0) k)) = V c main_v41 (ix2 ((((cfg2.win 3).blk t).view.emb j) 0) k)
    refine congrArg (V c main_v41) (funext fun a => Fin.ext ?_)
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega
  · show (j 1).val = win2_3.index t (1 : Fin 2) * 128 + 1 * (j 1).val; omega

/-- An index of the output array is in point t's block iff each coordinate is in the block's range on its axis. -/
theorem mem_blk (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v42).slice (win2_3.rect t)).set ↔ _
  rw [View.set_slice_whole, Rect.mem_set_unit]
  exact Iff.rfl

/-- Every index of the output array is in some point's block: row r in point r / 5000's. -/
theorem cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ := idx_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- THE OUTPUT ARRAY after the launch is the layer of the arrays the launch read. -/
theorem final (c : Dev nD) : (dat2 V c).arrAt 3 cfg2.N = layer V c :=
  (dat2 V c).arrAt_eq_of_cover 3 (layer V c) (fun t _ => flushed_eq V c t) cover

end Cert.Gin.Launch2

end
-- ==== Proof.Dense.lean ====
/-
  The dense layer written entry by entry is the dense layer in the host's operations.

  Entry (p, q) of the first is max ((∑ k, h(p, k) · w(k, q)) + bias(q)) 0, the bias vector entering as the one-row matrix
  of it.  The host computes the matrix product with its general contraction (the same finite sum), broadcasts the bias
  vector to one row and that row to every row, adds, and takes the maximum with the zero constant broadcast to the matrix.
  Both name the same entries.
-/
import proofs.«155894_j22960895164529_1_alg».proof.Proof.Network
import proofs.«155894_j22960895164529_1_alg».proof.Proof.LibGcnSteps

noncomputable section

namespace Cert.Gin

open Idealize.ShloMosaic Cert.ReferenceIdeal Cert.ReferenceIdeal.Gen

theorem dense_eq (h : FVec Ideal S100000x128 .f32) (w : FVec Ideal S128x128 .f32) (b : FVec Ideal S128 .f32)
    (hc : S128.ShapeCasts S1x128) :
    Gcn.biasRelu (a := 100000) (b := 128) (Gcn.mm (a := 100000) (K := 128) (b := 128) h w) (shapeCast S1x128 b hc)
      = dense h w b := by
  unfold dense
  rw [Gcn.mm_eq_dotGeneral (a := 100000) (K := 128) (b := 128) dot_S100000x128_S128x128_S100000x128_1_0_0_1_n_n rfl rfl
    (fun _ _ => rfl) (fun _ _ => rfl) (fun _ _ => rfl) (fun _ _ => rfl) none h w]
  exact Gcn.biasRelu_eq_host (a := 100000) (b := 128) _ b hc bcast_S128_S1x128_1 bcast_S1x128_S100000x128_0_1 bcast_S_S100000x128

end Cert.Gin

end
-- ==== Proof.Walk.lean ====
/-
  The kernel program's buffers, boundary by boundary, and its result as the network of its arguments.

  The program never writes a buffer twice.  A stretch of host operations leaves every buffer it does not write as it was;
  a launch changes its output array only.  So the edge table's two rows, the three bias rows, the weights, the graph
  numbers and the output layer's parameters, once computed or launched, are the same at every later boundary.  Walking the
  boundaries: the first stretch forms the senders, the receivers, the bias rows and the first mixed features; each launch
  turns mixed features into the dense layer of them; each later stretch mixes the layer's output again; the last stretch is
  the readout.  Composed, the result array is three rounds of mix then dense, then the readout.
-/
import proofs.«155894_j22960895164529_1_alg».proof.Proof.Gen.KernelIdeal.Frame
import proofs.«155894_j22960895164529_1_alg».proof.Proof.Launch0
import proofs.«155894_j22960895164529_1_alg».proof.Proof.Launch1
import proofs.«155894_j22960895164529_1_alg».proof.Proof.Launch2
import proofs.«155894_j22960895164529_1_alg».proof.Proof.Network
import proofs.«155894_j22960895164529_1_alg».proof.Proof.Dense
import Idealize.ShloMosaic.Lib.StableHlo.Run

set_option maxRecDepth 16384

noncomputable section

namespace Cert.Gin.Walk

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg) (c : Dev nD)

/-- Closes "after this literal stretch of host operations the buffer holds what it held": none of the operations writes it. -/
macro "stretch_keeps" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## After the first stretch -/

theorem senders1 : W1 m ρ c (Proc.devRef .tc main_v1) = (Cert.Gin.senders (m ((c.tc : Thread nD τ).loc main_arg1))) := by
  show StableHlo.after hostOps0 (W0 m ρ c) (Proc.devRef .tc main_v1) = _
  after_results
  unfold Cert.Gin.senders
  rfl

theorem receivers1 : W1 m ρ c (Proc.devRef .tc main_v3) = (Cert.Gin.receivers (m ((c.tc : Thread nD τ).loc main_arg1))) := by
  show StableHlo.after hostOps0 (W0 m ρ c) (Proc.devRef .tc main_v3) = _
  after_results
  unfold Cert.Gin.receivers
  rfl

theorem biasRow1_1 : W1 m ρ c (Proc.devRef .tc main_v4) = (shapeCast S1x128 (m ((c.tc : Thread nD τ).loc main_arg4)) shapeCasts_S128_S1x128) := by
  show StableHlo.after hostOps0 (W0 m ρ c) (Proc.devRef .tc main_v4) = _
  after_results
  rfl

theorem biasRow2_1 : W1 m ρ c (Proc.devRef .tc main_v5) = (shapeCast S1x128 (m ((c.tc : Thread nD τ).loc main_arg6)) shapeCasts_S128_S1x128) := by
  show StableHlo.after hostOps0 (W0 m ρ c) (Proc.devRef .tc main_v5) = _
  after_results
  rfl

theorem biasRow3_1 : W1 m ρ c (Proc.devRef .tc main_v6) = (shapeCast S1x128 (m ((c.tc : Thread nD τ).loc main_arg8)) shapeCasts_S128_S1x128) := by
  show StableHlo.after hostOps0 (W0 m ρ c) (Proc.devRef .tc main_v6) = _
  after_results
  rfl

set_option maxHeartbeats 4000000 in
theorem mixed1 : W1 m ρ c (Proc.devRef .tc main_v17) = Cert.Gin.mix (Cert.Gin.senders (m ((c.tc : Thread nD τ).loc main_arg1))) (Cert.Gin.receivers (m ((c.tc : Thread nD τ).loc main_arg1))) (m ((c.tc : Thread nD τ).loc main_arg0)) := by
  show StableHlo.after hostOps0 (W0 m ρ c) (Proc.devRef .tc main_v17) = _
  after_results_simp
  unfold Cert.Gin.mix Cert.Gin.wrap Cert.Gin.senders Cert.Gin.receivers
  rfl

theorem arg2_1 : W1 m ρ c (Proc.devRef .tc main_arg2) = (m ((c.tc : Thread nD τ).loc main_arg2)) :=
  (by stretch_keeps hostOps0 : W1 m ρ c (Proc.devRef .tc main_arg2) = W0 m ρ c (Proc.devRef .tc main_arg2)).trans rfl

theorem arg3_1 : W1 m ρ c (Proc.devRef .tc main_arg3) = (m ((c.tc : Thread nD τ).loc main_arg3)) :=
  (by stretch_keeps hostOps0 : W1 m ρ c (Proc.devRef .tc main_arg3) = W0 m ρ c (Proc.devRef .tc main_arg3)).trans rfl

theorem arg5_1 : W1 m ρ c (Proc.devRef .tc main_arg5) = (m ((c.tc : Thread nD τ).loc main_arg5)) :=
  (by stretch_keeps hostOps0 : W1 m ρ c (Proc.devRef .tc main_arg5) = W0 m ρ c (Proc.devRef .tc main_arg5)).trans rfl

theorem arg7_1 : W1 m ρ c (Proc.devRef .tc main_arg7) = (m ((c.tc : Thread nD τ).loc main_arg7)) :=
  (by stretch_keeps hostOps0 : W1 m ρ c (Proc.devRef .tc main_arg7) = W0 m ρ c (Proc.devRef .tc main_arg7)).trans rfl

theorem arg9_1 : W1 m ρ c (Proc.devRef .tc main_arg9) = (m ((c.tc : Thread nD τ).loc main_arg9)) :=
  (by stretch_keeps hostOps0 : W1 m ρ c (Proc.devRef .tc main_arg9) = W0 m ρ c (Proc.devRef .tc main_arg9)).trans rfl

theorem arg10_1 : W1 m ρ c (Proc.devRef .tc main_arg10) = (m ((c.tc : Thread nD τ).loc main_arg10)) :=
  (by stretch_keeps hostOps0 : W1 m ρ c (Proc.devRef .tc main_arg10) = W0 m ρ c (Proc.devRef .tc main_arg10)).trans rfl

/-! ## What each launch leaves in its output array -/

theorem layer1 : W2 m ρ c (Proc.devRef .tc main_v18)
    = Gcn.biasRelu (a := 100000) (b := 128) (Gcn.mm (a := 100000) (K := 128) (b := 128) (W1 m ρ c (Proc.devRef .tc main_v17)) (W1 m ρ c (Proc.devRef .tc main_arg3))) (W1 m ρ c (Proc.devRef .tc main_v4)) :=
  (W2_arr m ρ c 3).trans (Cert.Gin.Launch0.final (V1 m ρ) c)

theorem layer2 : W4 m ρ c (Proc.devRef .tc main_v30)
    = Gcn.biasRelu (a := 100000) (b := 128) (Gcn.mm (a := 100000) (K := 128) (b := 128) (W3 m ρ c (Proc.devRef .tc main_v29)) (W3 m ρ c (Proc.devRef .tc main_arg5))) (W3 m ρ c (Proc.devRef .tc main_v5)) :=
  (W4_arr m ρ c 3).trans (Cert.Gin.Launch1.final (V3 m ρ) c)

theorem layer3 : W6 m ρ c (Proc.devRef .tc main_v42)
    = Gcn.biasRelu (a := 100000) (b := 128) (Gcn.mm (a := 100000) (K := 128) (b := 128) (W5 m ρ c (Proc.devRef .tc main_v41)) (W5 m ρ c (Proc.devRef .tc main_arg7))) (W5 m ρ c (Proc.devRef .tc main_v6)) :=
  (W6_arr m ρ c 3).trans (Cert.Gin.Launch2.final (V5 m ρ) c)

/-! ## What the later stretches compute -/

set_option maxHeartbeats 4000000 in
theorem mixed2 : W3 m ρ c (Proc.devRef .tc main_v29) = Cert.Gin.mix (W2 m ρ c (Proc.devRef .tc main_v1)) (W2 m ρ c (Proc.devRef .tc main_v3)) (W2 m ρ c (Proc.devRef .tc main_v18)) := by
  show StableHlo.after hostOps1 (W2 m ρ c) (Proc.devRef .tc main_v29) = _
  after_results_simp
  unfold Cert.Gin.mix Cert.Gin.wrap
  rfl

set_option maxHeartbeats 4000000 in
theorem mixed3 : W5 m ρ c (Proc.devRef .tc main_v41) = Cert.Gin.mix (W4 m ρ c (Proc.devRef .tc main_v1)) (W4 m ρ c (Proc.devRef .tc main_v3)) (W4 m ρ c (Proc.devRef .tc main_v30)) := by
  show StableHlo.after hostOps2 (W4 m ρ c) (Proc.devRef .tc main_v41) = _
  after_results_simp
  unfold Cert.Gin.mix Cert.Gin.wrap
  rfl

set_option maxHeartbeats 4000000 in
theorem readout7 : W7 m ρ c (Proc.devRef .tc main_v57)
    = Cert.Gin.readout (W6 m ρ c (Proc.devRef .tc main_arg2)) (W6 m ρ c (Proc.devRef .tc main_v42)) (W6 m ρ c (Proc.devRef .tc main_arg9)) (W6 m ρ c (Proc.devRef .tc main_arg10)) := by
  show StableHlo.after hostOps3 (W6 m ρ c) (Proc.devRef .tc main_v57) = _
  after_results_simp
  unfold Cert.Gin.readout
  rfl

/-! ## The buffers carried from boundary to boundary -/

theorem senders2 : W2 m ρ c (Proc.devRef .tc main_v1) = (Cert.Gin.senders (m ((c.tc : Thread nD τ).loc main_arg1))) :=
  (W2_of_ne m ρ c main_v1 (by decide)).trans <|
  senders1 m ρ c

theorem receivers2 : W2 m ρ c (Proc.devRef .tc main_v3) = (Cert.Gin.receivers (m ((c.tc : Thread nD τ).loc main_arg1))) :=
  (W2_of_ne m ρ c main_v3 (by decide)).trans <|
  receivers1 m ρ c

theorem senders4 : W4 m ρ c (Proc.devRef .tc main_v1) = (Cert.Gin.senders (m ((c.tc : Thread nD τ).loc main_arg1))) :=
  (W4_of_ne m ρ c main_v1 (by decide)).trans <|
  (by stretch_keeps hostOps1 : W3 m ρ c (Proc.devRef .tc main_v1) = W2 m ρ c (Proc.devRef .tc main_v1)).trans <|
  (W2_of_ne m ρ c main_v1 (by decide)).trans <|
  senders1 m ρ c

theorem receivers4 : W4 m ρ c (Proc.devRef .tc main_v3) = (Cert.Gin.receivers (m ((c.tc : Thread nD τ).loc main_arg1))) :=
  (W4_of_ne m ρ c main_v3 (by decide)).trans <|
  (by stretch_keeps hostOps1 : W3 m ρ c (Proc.devRef .tc main_v3) = W2 m ρ c (Proc.devRef .tc main_v3)).trans <|
  (W2_of_ne m ρ c main_v3 (by decide)).trans <|
  receivers1 m ρ c

theorem biasRow2_3 : W3 m ρ c (Proc.devRef .tc main_v5) = (shapeCast S1x128 (m ((c.tc : Thread nD τ).loc main_arg6)) shapeCasts_S128_S1x128) :=
  (by stretch_keeps hostOps1 : W3 m ρ c (Proc.devRef .tc main_v5) = W2 m ρ c (Proc.devRef .tc main_v5)).trans <|
  (W2_of_ne m ρ c main_v5 (by decide)).trans <|
  biasRow2_1 m ρ c

theorem biasRow3_5 : W5 m ρ c (Proc.devRef .tc main_v6) = (shapeCast S1x128 (m ((c.tc : Thread nD τ).loc main_arg8)) shapeCasts_S128_S1x128) :=
  (by stretch_keeps hostOps2 : W5 m ρ c (Proc.devRef .tc main_v6) = W4 m ρ c (Proc.devRef .tc main_v6)).trans <|
  (W4_of_ne m ρ c main_v6 (by decide)).trans <|
  (by stretch_keeps hostOps1 : W3 m ρ c (Proc.devRef .tc main_v6) = W2 m ρ c (Proc.devRef .tc main_v6)).trans <|
  (W2_of_ne m ρ c main_v6 (by decide)).trans <|
  biasRow3_1 m ρ c

theorem arg5_3 : W3 m ρ c (Proc.devRef .tc main_arg5) = (m ((c.tc : Thread nD τ).loc main_arg5)) :=
  (by stretch_keeps hostOps1 : W3 m ρ c (Proc.devRef .tc main_arg5) = W2 m ρ c (Proc.devRef .tc main_arg5)).trans <|
  (W2_of_ne m ρ c main_arg5 (by decide)).trans <|
  arg5_1 m ρ c

theorem arg7_5 : W5 m ρ c (Proc.devRef .tc main_arg7) = (m ((c.tc : Thread nD τ).loc main_arg7)) :=
  (by stretch_keeps hostOps2 : W5 m ρ c (Proc.devRef .tc main_arg7) = W4 m ρ c (Proc.devRef .tc main_arg7)).trans <|
  (W4_of_ne m ρ c main_arg7 (by decide)).trans <|
  (by stretch_keeps hostOps1 : W3 m ρ c (Proc.devRef .tc main_arg7) = W2 m ρ c (Proc.devRef .tc main_arg7)).trans <|
  (W2_of_ne m ρ c main_arg7 (by decide)).trans <|
  arg7_1 m ρ c

theorem arg2_6 : W6 m ρ c (Proc.devRef .tc main_arg2) = (m ((c.tc : Thread nD τ).loc main_arg2)) :=
  (W6_of_ne m ρ c main_arg2 (by decide)).trans <|
  (by stretch_keeps hostOps2 : W5 m ρ c (Proc.devRef .tc main_arg2) = W4 m ρ c (Proc.devRef .tc main_arg2)).trans <|
  (W4_of_ne m ρ c main_arg2 (by decide)).trans <|
  (by stretch_keeps hostOps1 : W3 m ρ c (Proc.devRef .tc main_arg2) = W2 m ρ c (Proc.devRef .tc main_arg2)).trans <|
  (W2_of_ne m ρ c main_arg2 (by decide)).trans <|
  arg2_1 m ρ c

theorem arg9_6 : W6 m ρ c (Proc.devRef .tc main_arg9) = (m ((c.tc : Thread nD τ).loc main_arg9)) :=
  (W6_of_ne m ρ c main_arg9 (by decide)).trans <|
  (by stretch_keeps hostOps2 : W5 m ρ c (Proc.devRef .tc main_arg9) = W4 m ρ c (Proc.devRef .tc main_arg9)).trans <|
  (W4_of_ne m ρ c main_arg9 (by decide)).trans <|
  (by stretch_keeps hostOps1 : W3 m ρ c (Proc.devRef .tc main_arg9) = W2 m ρ c (Proc.devRef .tc main_arg9)).trans <|
  (W2_of_ne m ρ c main_arg9 (by decide)).trans <|
  arg9_1 m ρ c

theorem arg10_6 : W6 m ρ c (Proc.devRef .tc main_arg10) = (m ((c.tc : Thread nD τ).loc main_arg10)) :=
  (W6_of_ne m ρ c main_arg10 (by decide)).trans <|
  (by stretch_keeps hostOps2 : W5 m ρ c (Proc.devRef .tc main_arg10) = W4 m ρ c (Proc.devRef .tc main_arg10)).trans <|
  (W4_of_ne m ρ c main_arg10 (by decide)).trans <|
  (by stretch_keeps hostOps1 : W3 m ρ c (Proc.devRef .tc main_arg10) = W2 m ρ c (Proc.devRef .tc main_arg10)).trans <|
  (W2_of_ne m ρ c main_arg10 (by decide)).trans <|
  arg10_1 m ρ c

/-! ## The result -/

/-- The result array at the last boundary is the network of the launch memory's arguments. -/
theorem result_eq : W7 m ρ c (Proc.devRef .tc main_v57)
    = Cert.Gin.gin (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [readout7, arg2_6, arg9_6, arg10_6, layer3, mixed3, arg7_5, biasRow3_5, senders4, receivers4,
    layer2, mixed2, arg5_3, biasRow2_3, senders2, receivers2, layer1, mixed1, arg3_1, biasRow1_1,
    Cert.Gin.dense_eq, Cert.Gin.dense_eq, Cert.Gin.dense_eq]
  rfl

end Cert.Gin.Walk

end
-- ==== Proof.lean ====
/-
  A graph network of three rounds and a readout, computed two ways, gives the same numbers.

  One round replaces every node's 128 features by the features plus the sum of its in-neighbours' features, multiplies
  by a 128 × 128 weight matrix, adds a bias to every row and clamps below at zero.  After three rounds the features are
  averaged over each of 512 graphs and sent through a 128 × 64 output layer.

  The reference does all of it with whole-array host operations.  The kernel program does the neighbour sums and the
  readout with the very same host operations, and the multiply-add-clamp step of each round in a kernel launched over
  20 blocks of 5000 nodes.  A node's row of that step depends on the node's own row only, so the twenty blocks together
  are the whole-array step; and a matrix product accumulated from zero is the same finite sum as the host's contraction,
  whatever the order of its terms, rounding of its operands to a shorter format being the identity on exact values.
  No law that needs finite operands is used, so the precondition is never opened.

  Proof/Network.lean states the network as five functions and shows the reference computes their composition;
  Proof/Payload.lean reads one grid point of the kernel; Proof/Launch0–2.lean read each launch's output array;
  Proof/NamedRun.lean is the kernel program's run with its final memory named; Proof/Walk.lean follows the buffers
  through the program; Proof/Dense.lean joins the two spellings of the dense step.
-/
import proofs.«155894_j22960895164529_1_alg».proof.Defs
import proofs.«155894_j22960895164529_1_alg».proof.Proof.Gen.Kernel
import proofs.«155894_j22960895164529_1_alg».proof.Proof.Gen.Kernel.Frame
import proofs.«155894_j22960895164529_1_alg».proof.Proof.Gen.KernelIdeal
import proofs.«155894_j22960895164529_1_alg».proof.Proof.Gen.KernelIdeal.Frame
import proofs.«155894_j22960895164529_1_alg».proof.Proof.Gen.ReferenceIdeal
import proofs.«155894_j22960895164529_1_alg».proof.Proof.Gen.Pre_finite_inputs
import proofs.«155894_j22960895164529_1_alg».proof.Proof.Gen.ReferenceIdeal.Run
import proofs.«155894_j22960895164529_1_alg».proof.Proof.NamedRun
import proofs.«155894_j22960895164529_1_alg».proof.Proof.Network
import proofs.«155894_j22960895164529_1_alg».proof.Proof.Walk
import Idealize.ShloMosaic.Adequacy
import Idealize.ShloMosaic.Init

noncomputable section

namespace Cert.Proof

open Idealize.ShloMosaic Idealize.ShloMosaic.TcCoe Idealize.SL.Sem

/-- The kernel program as printed runs to the end and leaves its arguments as launched. -/
theorem frame_kernel : Cert.frame_Kernel := fun m ρ _ => Cert.Kernel.Gen.frame m ρ

/-- So does its reading over exact values. -/
theorem frame_kernelIdeal : Cert.frame_KernelIdeal := fun m ρ _ => Cert.KernelIdeal.Gen.frame m ρ

/-- The reference is a line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel program over exact values rewrote none of its operations. -/
theorem preserves : Cert.preserves_Kernel_KernelIdeal := trivial

/-- From memories that agree on the arguments both programs end with the network of those arguments. -/
theorem algebraic : Cert.algebraic_KernelIdeal_ReferenceIdeal := by
  intro m ρ m' ρ' _ hagree
  refine ⟨fun c => Cert.Gin.gin (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.Gin.Walk.result_eq m ρ c), (h c).2⟩)
      (Cert.KernelIdeal.Named.run_out m ρ)
  · refine (θ_run Cert.ReferenceIdeal.defs _ _).mono (fun _ h c => ⟨(h c).1.trans ?_, (h c).2⟩)
      (Cert.ReferenceIdeal.Value.run (F := Ideal) m' ρ')
    rw [Cert.Gin.reference_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
